-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S16x1x512x512 : Shape := ⟨4, ![16, 1, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x3x512x512 .f32) (main_arg1 : FVec F S16x3x512x512 .f32) (main_arg2 : FVec F S16x1x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  main_v13
-- ==== Kernel.lean ====
abbrev S16x3x512x512 : Shape := ⟨4, ![16, 3, 512, 512]⟩
abbrev S16x1x512x512 : Shape := ⟨4, ![16, 1, 512, 512]⟩
abbrev S2x1x1 : Shape := ⟨3, ![2, 1, 1]⟩
abbrev S1x3x512x512 : Shape := ⟨4, ![1, 3, 512, 512]⟩
abbrev S1x1x512x512 : Shape := ⟨4, ![1, 1, 512, 512]⟩
abbrev S1x1x1 : Shape := ⟨3, ![1, 1, 1]⟩
abbrev S1x1x3x512x512 : Shape := ⟨5, ![1, 1, 3, 512, 512]⟩
abbrev S1 : Shape := ⟨1, ![1]⟩
abbrev S1x1x1x1x1 : Shape := ⟨5, ![1, 1, 1, 1, 1]⟩
abbrev S1x1x1x512x512 : Shape := ⟨5, ![1, 1, 1, 512, 512]⟩
abbrev S_ : Shape := ⟨0, ![]⟩

abbrev nBuf : Space → Nat
  | .hbm => 27
  | .vmem => 12
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x512x512, .f32⟩
  | .hbm, ⟨3, _⟩ => ⟨S2x1x1, .f32⟩
  | .hbm, ⟨4, _⟩ => ⟨S2x1x1, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  natLt_1_32 : 1 < 32
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S1x1x3x512x512 : S1x3x512x512.ShapeCasts S1x1x3x512x512
  reduces_S1x1x3x512x512_S1 : S1x1x3x512x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  broadcasts_S1x1x512x512_S1x3x512x512 : S1x1x512x512.Broadcasts S1x3x512x512
  shapeCasts_S1x1x512x512_S1x1x1x512x512 : S1x1x512x512.ShapeCasts S1x1x1x512x512
  reduces_S1x1x1x512x512_S1 : S1x1x1x512x512.Reduces [1, 2, 3, 4] S1
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x1x512x512 : Shape := ⟨4, ![16, 1, 512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x512x512, .f32⟩
  | .hbm, ⟨3, _⟩ => ⟨S_, .f32⟩
  | .hbm, ⟨4, _⟩ => ⟨S16x1x512x512, .f32⟩
  | .hbm, ⟨5, _⟩ => ⟨S16x1x512x512, .i1⟩
  | .hbm, ⟨6, _⟩ => ⟨S16x1x512x512, .i32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x3x512x512, .f32⟩
  | .hbm, ⟨17, _⟩ => ⟨S16x3x512x512, .f32⟩
  | .hbm, ⟨18, _⟩ => ⟨S16x1x512x512, .f32⟩
  | .hbm, ⟨19, _⟩ => ⟨S16x3x512x512, .f32⟩
  | .hbm, ⟨20, _⟩ => ⟨S16x3x512x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x1x512x512, .f32⟩
  | .hbm, ⟨25, _⟩ => ⟨S16x1x512x512, .f32⟩
  | .hbm, ⟨26, _⟩ => ⟨S16x3x512x512, .f32⟩
  | .hbm, ⟨27, _⟩ => ⟨S16x3x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  natLt_1_32 : 1 < 32
  reducesTo_S16x1x512x512_S_d0_1_2_3 : S16x1x512x512.ReducesTo [0, 1, 2, 3] S_
  h_S_ : 0 < S_.numel
  bcast_S16x1x512x512_S16x3x512x512_0_1_2_3 : S16x1x512x512.BroadcastsInDim S16x3x512x512 (![0, 1, 2, 3] : Fin 4 → Fin S16x3x512x512.rank)
  reducesTo_S16x3x512x512_S_d0_1_2_3 : S16x3x512x512.ReducesTo [0, 1, 2, 3] S_

variable [Facts₀]

class Facts : Prop extends Facts₀ where

variable [Facts]
-- ==== Proof.Accumulators.lean ====
/-
  What one run of the kernel body leaves in its three accumulators, as values.

  The body keeps three one-element accumulators: the count of mask entries above the threshold, the masked sum of squared
  differences, and the unmasked-minus-masked sum. At the first batch entry a core handles it stores zero into each and
  then adds the entry's contribution to what it reads back; at every later entry it adds the contribution to what the
  entry before left. Each accumulator is written by covering stores of its whole one-element block, so its contents
  after the body are the last store's value: the contribution added to zero (first entry) or to the running value
  (later entries). Stated for any float instance.
-/
import proofs.«154313_j8770323218587_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Accumulators

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A later batch entry: the contribution is added to the running value -/

theorem step_3 (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x512x512 .f32) (h4 : a4.IsWhole)
    (a5 : Memref sig .tc .vmem S1x1x1 .f32) (h5 : a5.IsWhole) (a6 : Memref sig .tc .vmem S1x1x1 .f32) (h6 : a6.IsWhole)
    (a7 : Memref sig .tc .vmem S1x1x1 .f32) (h7 : a7.IsWhole) (hc : ¬cond0_0 i)
    (x0 x1 : Vec F S1x3x512x512 .f32) (x2 : Vec F S1x1x512x512 .f32) (xo3 xo4 xo5 : Vec F S1x1x1 .f32) :
    out0_B_3 c i a2 h2 a3 h3 a4 h4 a5 h5 a6 h6 a7 h7 hc x0 x1 x2 xo3 xo4 xo5 = k0_pay10 x2 xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x3x512x512) hz4, View.ld_unit_zero (S := S1x1x512x512) hz4, View.ld_unit_zero (S := S1x1x1) hz3]

theorem step_4 (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x512x512 .f32) (h4 : a4.IsWhole)
    (a5 : Memref sig .tc .vmem S1x1x1 .f32) (h5 : a5.IsWhole) (a6 : Memref sig .tc .vmem S1x1x1 .f32) (h6 : a6.IsWhole)
    (a7 : Memref sig .tc .vmem S1x1x1 .f32) (h7 : a7.IsWhole) (hc : ¬cond0_0 i)
    (x0 x1 : Vec F S1x3x512x512 .f32) (x2 : Vec F S1x1x512x512 .f32) (xo3 xo4 xo5 : Vec F S1x1x1 .f32) :
    out0_B_4 c i a2 h2 a3 h3 a4 h4 a5 h5 a6 h6 a7 h7 hc x0 x1 x2 xo3 xo4 xo5 = k0_pay1 (k0_pay8 x2 x1 x0) xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x3x512x512) hz4, View.ld_unit_zero (S := S1x1x512x512) hz4, View.ld_unit_zero (S := S1x1x1) hz3]

theorem step_5 (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x512x512 .f32) (h4 : a4.IsWhole)
    (a5 : Memref sig .tc .vmem S1x1x1 .f32) (h5 : a5.IsWhole) (a6 : Memref sig .tc .vmem S1x1x1 .f32) (h6 : a6.IsWhole)
    (a7 : Memref sig .tc .vmem S1x1x1 .f32) (h7 : a7.IsWhole) (hc : ¬cond0_0 i)
    (x0 x1 : Vec F S1x3x512x512 .f32) (x2 : Vec F S1x1x512x512 .f32) (xo3 xo4 xo5 : Vec F S1x1x1 .f32) :
    out0_B_5 c i a2 h2 a3 h3 a4 h4 a5 h5 a6 h6 a7 h7 hc x0 x1 x2 xo3 xo4 xo5 = k0_pay2 (k0_pay9 x2 x1 x0) xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x3x512x512) hz4, View.ld_unit_zero (S := S1x1x512x512) hz4, View.ld_unit_zero (S := S1x1x1) hz3]

/-! ## A core's first batch entry: the contribution is added to the zero just stored -/

theorem first_3 (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x512x512 .f32) (h4 : a4.IsWhole)
    (a5 : Memref sig .tc .vmem S1x1x1 .f32) (h5 : a5.IsWhole) (a6 : Memref sig .tc .vmem S1x1x1 .f32) (h6 : a6.IsWhole)
    (a7 : Memref sig .tc .vmem S1x1x1 .f32) (h7 : a7.IsWhole) (hc : cond0_0 i)
    (x0 x1 : Vec F S1x3x512x512 .f32) (x2 : Vec F S1x1x512x512 .f32) :
    out0_A_3 c i a2 h2 a3 h3 a4 h4 a5 h5 a6 h6 a7 h7 hc x0 x1 x2 = k0_pay10 x2 (k0_pay3 (F := F)) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S1x3x512x512) hz4, View.ld_unit_zero (S := S1x1x512x512) hz4, View.ld_unit_zero (S := S1x1x1) hz3]

theorem first_4 (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x512x512 .f32) (h4 : a4.IsWhole)
    (a5 : Memref sig .tc .vmem S1x1x1 .f32) (h5 : a5.IsWhole) (a6 : Memref sig .tc .vmem S1x1x1 .f32) (h6 : a6.IsWhole)
    (a7 : Memref sig .tc .vmem S1x1x1 .f32) (h7 : a7.IsWhole) (hc : cond0_0 i)
    (x0 x1 : Vec F S1x3x512x512 .f32) (x2 : Vec F S1x1x512x512 .f32) :
    out0_A_4 c i a2 h2 a3 h3 a4 h4 a5 h5 a6 h6 a7 h7 hc x0 x1 x2 = k0_pay1 (k0_pay8 x2 x1 x0) (k0_pay4 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S1x3x512x512) hz4, View.ld_unit_zero (S := S1x1x512x512) hz4, View.ld_unit_zero (S := S1x1x1) hz3]

theorem first_5 (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x512x512 .f32) (h4 : a4.IsWhole)
    (a5 : Memref sig .tc .vmem S1x1x1 .f32) (h5 : a5.IsWhole) (a6 : Memref sig .tc .vmem S1x1x1 .f32) (h6 : a6.IsWhole)
    (a7 : Memref sig .tc .vmem S1x1x1 .f32) (h7 : a7.IsWhole) (hc : cond0_0 i)
    (x0 x1 : Vec F S1x3x512x512 .f32) (x2 : Vec F S1x1x512x512 .f32) :
    out0_A_5 c i a2 h2 a3 h3 a4 h4 a5 h5 a6 h6 a7 h7 hc x0 x1 x2 = k0_pay2 (k0_pay9 x2 x1 x0) (k0_pay5 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S1x3x512x512) hz4, View.ld_unit_zero (S := S1x1x512x512) hz4, View.ld_unit_zero (S := S1x1x1) hz3]

end Cert.KernelIdeal.Accumulators

end
-- ==== Proof.Terms.lean ====
/-
  The two pointwise terms of the loss, on the extended reals: the indicator that a mask entry exceeds the threshold
  (the threshold kept as the float word both programs print, never evaluated), and the squared difference.
-/
import Idealize.ShloMosaic.PureOps.Ideal
import Idealize.ShloMosaic.PureOps.Vector

noncomputable section

namespace Cert.MaskedLoss

open Idealize.ShloMosaic

/-- 1 where the mask entry `s` is above the threshold, 0 elsewhere. -/
def above (s : EReal) : EReal := (((Ideal.cmp .ogt s (Ideal.ofBits .f32 0x3F000000#32)).toNat : ℝ) : EReal)

/-- The squared difference `(a - x)²`. -/
def sqDiff (a x : EReal) : EReal := (a - x) * (a - x)

/-- The indicator is a real number. -/
theorem above_real (s : EReal) : ∃ r : ℝ, above s = r := ⟨_, rfl⟩

/-- The squared difference of two real numbers is a real number. -/
theorem sqDiff_real (a x : ℝ) : ∃ r : ℝ, sqDiff (a : EReal) (x : EReal) = r :=
  ⟨(a - x) * (a - x), by unfold sqDiff; rw [← EReal.coe_sub, ← EReal.coe_mul]⟩

/-- The loss from the three totals — the count `N` of mask entries above the threshold, the masked total `P` and the
    complementary total `Q` —, as both programs compute it on rank-0 arrays, with their float words for the number of
    mask entries, for 1 and for the number of channels: `(N / T) · (Q / ((T - N) · 3)) + (1 - N / T) · (P / (N · 3))`. -/
def loss (N P Q : FVec Ideal (⟨0, ![]⟩ : Shape) .f32) : FVec Ideal (⟨0, ![]⟩ : Shape) .f32 :=
  addf
    (mulf (Host.divf N (constant (F := Ideal) ⟨0, ![]⟩ .f32 0x4A800000#32))
      (Host.divf Q (mulf (subf (constant (F := Ideal) ⟨0, ![]⟩ .f32 0x4A800000#32) N) (constant (F := Ideal) ⟨0, ![]⟩ .f32 0x40400000#32))))
    (mulf (subf (constant (F := Ideal) ⟨0, ![]⟩ .f32 0x3F800000#32) (Host.divf N (constant (F := Ideal) ⟨0, ![]⟩ .f32 0x4A800000#32)))
      (Host.divf P (mulf N (constant (F := Ideal) ⟨0, ![]⟩ .f32 0x40400000#32))))

end Cert.MaskedLoss

end
-- ==== Proof.LibLeadingAxisSums.lean ====
/-
  Total sums over array index sets, regrouped by the leading coordinate.

  * A sum over every index of an [n0, n1, n2, n3] array is the sum over the leading coordinate `n` of the sums over the
    indices of the [1, n1, n2, n3] slab at `n` (`sum_by_leading`); a sum over an [n, 1, 1] array is the sum over `n`
    (`sum_unit_tail`).
  * Two runs of eight consecutive indices, each summed from zero, make the sum over sixteen (`sum_two_runs`).
  * A shape cast permutes the entries, so it keeps the total (`sum_shapeCast`).
  * On the extended reals a finite sum of real numbers is the real sum (`coe_sum`), and for real-valued `d` and `w`
    the total of `d · (1 - w)` is the total of `d` minus the total of `d · w` (`sum_mul_one_sub`): this is where
    finiteness is needed, since `⊤ - ⊤` is not `0`.
-/
import Idealize.ShloMosaic.PureOps.Ideal
import Idealize.ShloMosaic.Lib.ValueIdx

noncomputable section

open scoped BigOperators

namespace Cert.LeadingAxisSums

open Idealize.ShloMosaic Idealize.ShloMosaic.ValueIdx

/-- An index of an [n0, n1, n2, n3] array is its leading coordinate and an index of the [1, n1, n2, n3] slab. -/
def leadingEquiv (n0 n1 n2 n3 : Nat) :
    (⟨4, ![n0, n1, n2, n3]⟩ : Shape).Idx ≃ Fin n0 × (⟨4, ![1, n1, n2, n3]⟩ : Shape).Idx where
  toFun i := (i 0, ix4 (0 : Fin 1) (i 1) (i 2) (i 3))
  invFun p := ix4 p.1 (p.2 1) (p.2 2) (p.2 3)
  left_inv i := (eq_ix4 i).symm
  right_inv p := by
    refine Prod.ext rfl ?_
    funext a
    match a with
    | ⟨0, _⟩ => exact Subsingleton.elim (α := Fin 1) _ _
    | ⟨1, _⟩ => rfl
    | ⟨2, _⟩ => rfl
    | ⟨3, _⟩ => rfl

/-- A total over an [n0, n1, n2, n3] array, slab by slab along the leading axis. -/
theorem sum_by_leading {M : Type*} [AddCommMonoid M] {n0 n1 n2 n3 : Nat} (f : (⟨4, ![n0, n1, n2, n3]⟩ : Shape).Idx → M) :
    ∑ i, f i = ∑ n : Fin n0, ∑ y : (⟨4, ![1, n1, n2, n3]⟩ : Shape).Idx, f (ix4 n (y 1) (y 2) (y 3)) := by
  rw [← Equiv.sum_comp (leadingEquiv n0 n1 n2 n3).symm f, Fintype.sum_prod_type]
  rfl

/-- An index of an [n, 1, 1] array is its leading coordinate. -/
def unitTailEquiv (n : Nat) : (⟨3, ![n, 1, 1]⟩ : Shape).Idx ≃ Fin n where
  toFun i := i 0
  invFun p := ix3 p (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- A total over an [n, 1, 1] array is the sum over its leading coordinate. -/
theorem sum_unit_tail {M : Type*} [AddCommMonoid M] {n : Nat} (f : (⟨3, ![n, 1, 1]⟩ : Shape).Idx → M) :
    ∑ i, f i = ∑ p : Fin n, f (ix3 p (0 : Fin 1) (0 : Fin 1)) := by
  rw [← Equiv.sum_comp (unitTailEquiv n).symm f]
  rfl

/-- Two runs of eight consecutive indices, each summed from zero, make the sum over sixteen. -/
theorem sum_two_runs {M : Type*} [AddCommMonoid M] (A : ℕ → M) :
    ∑ p : Fin 2, (0 + ∑ s ∈ Finset.range 8, A (8 * p.val + s)) = ∑ n : Fin 16, A n.val := by
  rw [Fin.sum_univ_two, ← Finset.sum_range (n := 16) A, show (16 : ℕ) = 8 + 8 from rfl, Finset.sum_range_add]
  simp

/-- A shape cast keeps the total of the entries. -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

/-- On the extended reals, a finite sum of real numbers is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- For real-valued `d` and `w`, the total of `d · (1 - w)` is the total of `d` minus the total of `d · w`. -/
theorem sum_mul_one_sub {ι : Type*} [Fintype ι] (d w : ι → EReal) (hd : ∀ i, ∃ r : ℝ, d i = r) (hw : ∀ i, ∃ r : ℝ, w i = r) :
    ∑ i, d i * (1 - w i) = ∑ i, d i - ∑ i, d i * w i := by
  choose dr hdr using hd
  choose wr hwr using hw
  have e1 : ∀ i, d i * (1 - w i) = ((dr i * (1 - wr i) : ℝ) : EReal) := fun i => by
    rw [hdr i, hwr i, EReal.coe_mul, EReal.coe_sub, EReal.coe_one]
  have e2 : ∀ i, d i = ((dr i : ℝ) : EReal) := hdr
  have e3 : ∀ i, d i * w i = ((dr i * wr i : ℝ) : EReal) := fun i => by rw [hdr i, hwr i, EReal.coe_mul]
  simp only [e1, e3]
  rw [Finset.sum_congr rfl (fun i _ => e2 i), coe_sum, coe_sum, coe_sum, ← EReal.coe_sub, ← Finset.sum_sub_distrib]
  exact congrArg _ (Finset.sum_congr rfl fun i _ => by ring)

end Cert.LeadingAxisSums

end
-- ==== Proof.LibBitCount.lean ====
/-
  Counting one-bit words with 32-bit integer addition.

  A one-bit word widened to 32 bits is 0 or 1 whether read signed or unsigned. The wrapping 32-bit sum of finitely many
  words is the sum of their values modulo 2^32; so the sum of fewer than 2^31 widened bits does not wrap, its signed
  reading is nonnegative, and as a real number it is the number of set bits.
-/
import Idealize.ShloMosaic.PureOps.Reduce
import Mathlib.Data.Real.Basic
import Mathlib.Algebra.BigOperators.Group.Finset.Basic
import Mathlib.Algebra.Order.BigOperators.Group.Finset

noncomputable section

open scoped BigOperators

namespace Cert.BitCount

open Idealize.ShloMosaic

/-- A one-bit word widened to 32 bits has the bit as its unsigned value, -/
theorem toNat_setWidth_one (b : BitVec 1) : (b.setWidth 32).toNat = b.toNat := by revert b; decide
/-- and as its signed value too; -/
theorem toInt_setWidth_one (b : BitVec 1) : (b.setWidth 32).toInt = (b.toNat : ℤ) := by revert b; decide
/-- the bit is 0 or 1. -/
theorem toNat_le_one (b : BitVec 1) : b.toNat ≤ 1 := by revert b; decide

/-- The wrapping 32-bit sum of finitely many words is the sum of their values modulo 2^32. -/
theorem toNat_fold_addi {ι : Type*} (S : Finset ι) (f : ι → BitVec 32) :
    (S.fold IntOp.addi 0#32 f).toNat = (∑ i ∈ S, (f i).toNat) % 2 ^ 32 := by
  classical
  induction S using Finset.induction_on with
  | empty => rfl
  | insert a s ha ih =>
    rw [Finset.fold_insert ha, Finset.sum_insert ha]
    show (f a + s.fold IntOp.addi 0#32 f).toNat = _
    rw [BitVec.toNat_add, ih, Nat.add_mod_mod]

/-- Fewer than 2^31 widened bits, added with wrapping 32-bit addition from zero and read signed: the number of set bits. -/
theorem count_bits {ι : Type*} (S : Finset ι) (b : ι → BitVec 1) (hS : S.card < 2 ^ 31) :
    (((S.fold IntOp.addi 0#32 (fun i => (b i).setWidth 32)).toInt : ℤ) : ℝ) = ∑ i ∈ S, ((b i).toNat : ℝ) := by
  have hle : ∑ i ∈ S, (b i).toNat ≤ S.card := by
    calc ∑ i ∈ S, (b i).toNat ≤ ∑ _i ∈ S, 1 := Finset.sum_le_sum fun i _ => toNat_le_one (b i)
      _ = S.card := by simp
  have hN : (S.fold IntOp.addi 0#32 (fun i => (b i).setWidth 32)).toNat = ∑ i ∈ S, (b i).toNat := by
    rw [toNat_fold_addi]
    simp only [toNat_setWidth_one]
    exact Nat.mod_eq_of_lt (by omega)
  have hI : (S.fold IntOp.addi 0#32 (fun i => (b i).setWidth 32)).toInt
      = ((S.fold IntOp.addi 0#32 (fun i => (b i).setWidth 32)).toNat : ℤ) :=
    BitVec.toInt_eq_toNat_of_lt (by rw [hN]; omega)
  rw [hI, hN]
  push_cast
  rfl

end Cert.BitCount

end
-- ==== Proof.Contributions.lean ====
/-
  One batch entry's contribution to each accumulator, on the extended reals.

  For the blocks `x`, `a` (each [1, 3, 512, 512]) and the mask block `s` ([1, 1, 512, 512]) of one batch entry the body adds
  to the three accumulators: the number of mask entries above the threshold, as a sum of indicators; the sum over all
  channels and positions of `(a - x)²` times the indicator at the position (the mask is repeated along the channel axis);
  and the sum of all `(a - x)²` minus that masked sum. Each reduction runs over every axis of its block, so it is a
  total; the casts that insert unit axes before it keep the total.
-/
import proofs.«154313_j8770323218587_2_alg».proof.Proof.Gen.KernelIdeal.Skeleton
import proofs.«154313_j8770323218587_2_alg».proof.Proof.Terms
import proofs.«154313_j8770323218587_2_alg».proof.Proof.LibLeadingAxisSums
import proofs.«154313_j8770323218587_2_alg».proof.Proof.LibBitCount
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Contributions

open Cert.KernelIdeal Cert.KernelIdeal.Gen Cert.MaskedLoss Cert.LeadingAxisSums

/-- The mask's float form at an entry is the indicator: the comparison's bit, widened and converted, is 0 or 1. -/
theorem indicator_apply (s : FVec Ideal S1x1x512x512 .f32) (k : S1x1x512x512.Idx) : k0_pay6 (F := Ideal) s k = above (s k) := by
  unfold k0_pay6 above
  show ((((Ideal.cmp .ogt (s k) (Ideal.ofBits .f32 0x3F000000#32)).setWidth 32).toInt : ℝ) : EReal) = _
  rw [Cert.BitCount.toInt_setWidth_one, Int.cast_natCast]

/-- The squared difference at an entry. -/
theorem sq_apply (a x : FVec Ideal S1x3x512x512 .f32) (y : S1x3x512x512.Idx) : k0_pay7 (F := Ideal) a x y = sqDiff (a y) (x y) := rfl

/-- The mask repeated along the channel axis, at an entry: the indicator at the entry's position. -/
theorem repeated_apply (s : FVec Ideal S1x1x512x512 .f32) (y : S1x3x512x512.Idx) :
    broadcastTo S1x3x512x512 (k0_pay6 (F := Ideal) s) broadcasts_S1x1x512x512_S1x3x512x512 y
      = above (s (ix4 (0 : Fin 1) (0 : Fin 1) (y 2) (y 3))) := by
  refine (broadcastTo_apply _ broadcasts_S1x1x512x512_S1x3x512x512 y (ix4 (0 : Fin 1) (0 : Fin 1) (y 2) (y 3)) (fun a => ?_)).trans
    (indicator_apply s _)
  match a with
  | ⟨0, _⟩ => show (0 : Nat) = if (1 : Nat) = 1 then 0 else _; rw [if_pos rfl]
  | ⟨1, _⟩ => show (0 : Nat) = if (1 : Nat) = 1 then 0 else _; rw [if_pos rfl]
  | ⟨2, _⟩ => show (y 2).val = if (512 : Nat) = 1 then 0 else (y 2).val; rw [if_neg (by decide)]
  | ⟨3, _⟩ => show (y 3).val = if (512 : Nat) = 1 then 0 else (y 3).val; rw [if_neg (by decide)]

/-- The one entry of a one-element vector, after the cast that wraps it in five unit axes. -/
theorem the_entry (v : FVec Ideal S1 .f32) :
    extractAt ![0, 0, 0, 0, 0] (shapeCast S1x1x1x1x1 v shapeCasts_S1_S1x1x1x1x1) inpos_S1x1x1x1x1_p0_0_0_0_0 = v (ix1 (0 : Fin 1)) := by
  unfold extractAt shapeCast
  exact congrArg v (funext fun a => match a with | ⟨0, _⟩ => Subsingleton.elim (α := Fin 1) _ _)

/-- A sum-reduction of a float vector over every axis but a leading unit one is the total of its entries. -/
theorem reduce_total {s : Shape} {axes : List (Fin s.rank)} (src : FVec Ideal s .f32) (acc : BitVec 32)
    (h : s.Reduces axes S1) (hφ : FKind.Formats .f32) (hacc : acc = FKind.neutral .add .f32 hφ) (j : S1.Idx) :
    multiReduction .add axes S1 src acc h hφ hacc j = ∑ i : s.Idx, src i :=
  Ideal.multiReduction_add_total src acc h (fun b => match b with | ⟨0, _⟩ => rfl) hφ hacc j

/-- The entry's masked sum of squared differences. -/
theorem masked_eq (x a : FVec Ideal S1x3x512x512 .f32) (s : FVec Ideal S1x1x512x512 .f32) :
    k0_pay8 (F := Ideal) s a x
      = ∑ y : S1x3x512x512.Idx, sqDiff (a y) (x y) * above (s (ix4 (0 : Fin 1) (0 : Fin 1) (y 2) (y 3))) := by
  unfold k0_pay8
  dsimp only
  rw [the_entry]
  refine (reduce_total _ _ _ _ _ _).trans ?_
  refine (sum_shapeCast _ _).trans (Fintype.sum_congr _ _ fun y => ?_)
  show k0_pay7 (F := Ideal) a x y * broadcastTo S1x3x512x512 (k0_pay6 (F := Ideal) s) broadcasts_S1x1x512x512_S1x3x512x512 y = _
  rw [repeated_apply, sq_apply]

/-- The entry's sum of all squared differences minus its masked sum. -/
theorem unmasked_eq (x a : FVec Ideal S1x3x512x512 .f32) (s : FVec Ideal S1x1x512x512 .f32) :
    k0_pay9 (F := Ideal) s a x = (∑ y : S1x3x512x512.Idx, sqDiff (a y) (x y)) - k0_pay8 (F := Ideal) s a x := by
  unfold k0_pay9
  dsimp only
  show _ - _ = _
  refine congrArg (· - k0_pay8 (F := Ideal) s a x) ?_
  rw [the_entry]
  refine (reduce_total _ _ _ _ _ _).trans ?_
  exact (sum_shapeCast _ _).trans (Fintype.sum_congr _ _ fun y => sq_apply a x y)

/-- The count accumulator after the body: what it held plus the entry's number of mask entries above the threshold. -/
theorem count_apply (s : FVec Ideal S1x1x512x512 .f32) (acc : FVec Ideal S1x1x1 .f32) (i : S1x1x1.Idx) :
    k0_pay10 (F := Ideal) s acc i = acc i + ∑ k : S1x1x512x512.Idx, above (s k) := by
  unfold k0_pay10
  rw [addf_apply, shapeCast_self, broadcast_apply, the_entry]
  refine congrArg (acc i + ·) ?_
  refine (reduce_total _ _ _ _ _ _).trans ?_
  exact (sum_shapeCast _ _).trans (Fintype.sum_congr _ _ fun k => indicator_apply s k)

/-- A scalar added to a one-element accumulator. -/
theorem add_scalar_4 (v : Ideal .f32) (acc : FVec Ideal S1x1x1 .f32) (i : S1x1x1.Idx) : k0_pay1 (F := Ideal) v acc i = acc i + v := by
  unfold k0_pay1
  rw [addf_apply, shapeCast_self, broadcast_apply]
theorem add_scalar_5 (v : Ideal .f32) (acc : FVec Ideal S1x1x1 .f32) (i : S1x1x1.Idx) : k0_pay2 (F := Ideal) v acc i = acc i + v := by
  unfold k0_pay2
  rw [addf_apply, shapeCast_self, broadcast_apply]

/-- The zero a core's first entry stores into each accumulator. -/
theorem zero_3 (i : S1x1x1.Idx) : k0_pay3 (F := Ideal) i = 0 := Ideal.ofBits_zero_f32
theorem zero_4 (i : S1x1x1.Idx) : k0_pay4 (F := Ideal) i = 0 := Ideal.ofBits_zero_f32
theorem zero_5 (i : S1x1x1.Idx) : k0_pay5 (F := Ideal) i = 0 := Ideal.ofBits_zero_f32

end Cert.KernelIdeal.Contributions

end
-- ==== Proof.Totals.lean ====
/-
  The three accumulator arrays after the kernel's run.

  The grid is 2 × 8: point `t = 8p + j` handles batch entry `t` on core `p`. Each accumulator block [1, 1, 1] stays in
  place over a core's eight points, is reset at the first (`t % 8 = 0`) and written back after the last (`t % 8 = 7`) to
  entry `p` of its [2, 1, 1] array. So what point `8q + 7` writes back is zero plus the eight entries' addends, by
  induction over the run (never over the grid), and the two write-backs cover the array.
-/
import proofs.«154313_j8770323218587_2_alg».proof.Proof.Gen.KernelIdeal.Frame
import proofs.«154313_j8770323218587_2_alg».proof.Proof.Accumulators
import proofs.«154313_j8770323218587_2_alg».proof.Proof.Contributions
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Accumulators Cert.MaskedLoss

variable (m : (ℓ : Loc nD τ sig) → Buf (Elt Ideal) ℓ) (ρ : Dev nD → PrngReg)

/-! ## One point's three values -/

/-- At a core's first entry (`t % 8 = 0`) each accumulator ends at its addend over zero. -/
theorem outs_first (c : Dev nD) (t : Fin cfg0.N) (h0 : t.val % 8 = 0) :
    outsAt0 m c t.val t.isLt
      = (k0_pay10 (F := Ideal) (iblk m c 2 t) (k0_pay3 (F := Ideal)),
         k0_pay1 (F := Ideal) (k0_pay8 (F := Ideal) (iblk m c 2 t) (iblk m c 1 t) (iblk m c 0 t)) (k0_pay4 (F := Ideal)),
         k0_pay2 (F := Ideal) (k0_pay9 (F := Ideal) (iblk m c 2 t) (iblk m c 1 t) (iblk m c 0 t)) (k0_pay5 (F := Ideal))) := by
  rw [outsAt0_A m c t h0]
  exact congrArg₂ Prod.mk
    (first_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
    (congrArg₂ Prod.mk
      (first_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
      (first_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)))

/-- At a later entry each accumulator ends at its addend over what the point before left. -/
theorem outs_step (c : Dev nD) (t : Fin cfg0.N) (h0 : ¬t.val % 8 = 0) :
    outsAt0 m c t.val t.isLt
      = (k0_pay10 (F := Ideal) (iblk m c 2 t) (outsAt0 m c (t.val - 1) (Nat.lt_of_le_of_lt (Nat.sub_le _ _) t.isLt)).1,
         k0_pay1 (F := Ideal) (k0_pay8 (F := Ideal) (iblk m c 2 t) (iblk m c 1 t) (iblk m c 0 t)) (outsAt0 m c (t.val - 1) (Nat.lt_of_le_of_lt (Nat.sub_le _ _) t.isLt)).2.1,
         k0_pay2 (F := Ideal) (k0_pay9 (F := Ideal) (iblk m c 2 t) (iblk m c 1 t) (iblk m c 0 t)) (outsAt0 m c (t.val - 1) (Nat.lt_of_le_of_lt (Nat.sub_le _ _) t.isLt)).2.2) := by
  rw [outsAt0_B m c t h0]
  exact congrArg₂ Prod.mk
    (step_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk
      (step_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
      (step_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2))

/-! ## One batch entry's addends, as functions of the entry's number -/

/-- The number of mask entries above the threshold in batch entry `n`'s mask block. -/
def countAt (c : Dev nD) (n : ℕ) : EReal :=
  if h : n < cfg0.N then ∑ k : S1x1x512x512.Idx, above ((iblk m c 2 ⟨n, h⟩ : FVec Ideal S1x1x512x512 .f32) k) else 0
/-- Batch entry `n`'s masked sum of squared differences. -/
def maskedAt (c : Dev nD) (n : ℕ) : EReal :=
  if h : n < cfg0.N then k0_pay8 (F := Ideal) (iblk m c 2 ⟨n, h⟩) (iblk m c 1 ⟨n, h⟩) (iblk m c 0 ⟨n, h⟩) else 0
/-- Batch entry `n`'s sum of all squared differences minus its masked sum. -/
def unmaskedAt (c : Dev nD) (n : ℕ) : EReal :=
  if h : n < cfg0.N then k0_pay9 (F := Ideal) (iblk m c 2 ⟨n, h⟩) (iblk m c 1 ⟨n, h⟩) (iblk m c 0 ⟨n, h⟩) else 0

/-! ## The accumulators' index maps, decided over the grid -/

/-- Each accumulator's block index along the leading axis at point `t` is the core `t / 8`; -/
theorem out_index : ∀ t : Fin cfg0.N, win0_3.index t (0 : Fin 3) = t.val / 8 ∧ win0_4.index t (0 : Fin 3) = t.val / 8
    ∧ win0_5.index t (0 : Fin 3) = t.val / 8 :=
  (by decide +kernel : ∀ t : Fin grid0.N, _)
/-- along the two unit axes it is 0. -/
theorem out_rest : ∀ t : Fin cfg0.N, (win0_3.index t (1 : Fin 3) = 0 ∧ win0_3.index t (2 : Fin 3) = 0)
    ∧ (win0_4.index t (1 : Fin 3) = 0 ∧ win0_4.index t (2 : Fin 3) = 0)
    ∧ (win0_5.index t (1 : Fin 3) = 0 ∧ win0_5.index t (2 : Fin 3) = 0) :=
  (by decide +kernel : ∀ t : Fin grid0.N, _)

/-! ## The count accumulator -/

/-- After the last entry of a core's run of eight (point `8q + 7`) the accumulator holds zero plus the eight entries' addends. -/
theorem count_running (c : Dev nD) (t : ℕ) (ht : t < cfg0.N) (q : ℕ) (hq : t = 8 * q + 7) (i : S1x1x1.Idx) :
    (outsAt0 m c t ht).1 i = 0 + ∑ s ∈ Finset.range 8, countAt m c (8 * q + s) := by
  subst hq
  rw [Pipeline.eq_accAt (N := cfg0.N) (fun n h => (outsAt0 m c n h).1) 8
    (fun n h => k0_pay10 (F := Ideal) (iblk m c 2 ⟨n, h⟩) (k0_pay3 (F := Ideal)))
    (fun n h acc => k0_pay10 (F := Ideal) (iblk m c 2 ⟨n, h⟩) acc)
    (fun n h h0 => congrArg (fun p => p.1) (outs_first m c ⟨n, h⟩ h0))
    (fun n h hne => congrArg (fun p => p.1) (outs_step m c ⟨n + 1, h⟩ hne))
    q 7 (by decide) ht]
  exact Pipeline.accAt_add_apply (N := cfg0.N) _ _ (fun _ => (0 : EReal)) (fun n _ => countAt m c n) (8 * q) 7
    (fun h i => by rw [Contributions.count_apply, Contributions.zero_3]; unfold countAt; rw [dif_pos h])
    (fun n h acc i _ _ => by rw [Contributions.count_apply]; unfold countAt; rw [dif_pos h]) 7 le_rfl ht i

/-- What the accumulator's array [2, 1, 1] ends holding: entry `p` is zero plus the addends of batch entries `8p … 8p + 7`. -/
def count_arr (c : Dev nD) : Buf (Elt Ideal) ((c : Thread nD τ).loc main_v0_0) :=
  fun i => 0 + ∑ s ∈ Finset.range 8, countAt m c (8 * (i 0).val + s)

/-- The point that writes the block back writes that entry. -/
theorem count_flushed (c : Dev nD) (t : Fin cfg0.N) (hf : (cfg0.win 3).flush t = true) :
    (dats m 0 c).flushed 3 t = ((cfg0.win 3).blk t).view.read (Elt Ideal) (count_arr m c) := by
  have h7 : t.val % 8 = 7 := (flush0_3 t).mp hf
  have hN : t.val < 16 := lt_of_lt_of_eq t.isLt (show cfg0.N = 16 from N_0)
  show (cfg0.win 3).cut (grid0.coords t) ((dats m 0 c).after 3 t) = _
  rw [after0_3]
  funext y
  show (outsAt0 m c t.val t.isLt).1 y = count_arr m c (((cfg0.win 3).blk t).view.emb y)
  have e : ((((cfg0.win 3).blk t).view.emb y) 0).val = t.val / 8 := by
    show win0_3.index t (0 : Fin 3) * 1 + 1 * (y 0).val = _
    have hy : (y 0).val < 1 := (y 0).isLt
    have := (out_index t).1
    omega
  rw [count_running m c t.val t.isLt (t.val / 8) (by omega) y]
  unfold count_arr
  rw [e]

/-- Every entry of the array is written back by some point: entry `p` by point `8p + 7`. -/
theorem count_cover (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hN : cfg0.N = 16 := N_0
  let t : Fin cfg0.N := ⟨8 * (i 0).val + 7, by omega⟩
  have ht : t.val = 8 * (i 0).val + 7 := rfl
  refine ⟨t, (flush0_3 t).mpr (by rw [ht]; omega), ?_⟩
  show i ∈ ((View.whole main_v0_0).slice (win0_3.rect t)).set
  rw [View.set_slice_whole, Rect.mem_set_unit]
  obtain ⟨e0, e1, e2⟩ := out_rest t
  have f0 := (out_index t).1
  have f1 := (e0).1
  have f2 := (e0).2
  intro a
  match a with
  | ⟨0, _⟩ =>
    show win0_3.index t (0 : Fin 3) * 1 ≤ (i 0).val ∧ (i 0).val < win0_3.index t (0 : Fin 3) * 1 + 1
    rw [f0, ht]; omega
  | ⟨1, _⟩ =>
    show win0_3.index t (1 : Fin 3) * 1 ≤ (i 1).val ∧ (i 1).val < win0_3.index t (1 : Fin 3) * 1 + 1
    rw [f1]; omega
  | ⟨2, _⟩ =>
    show win0_3.index t (2 : Fin 3) * 1 ≤ (i 2).val ∧ (i 2).val < win0_3.index t (2 : Fin 3) * 1 + 1
    rw [f2]; omega

/-- So after the run the array holds it. -/
theorem count_final (c : Dev nD) : (dats m 0 c).arrAt 3 cfg0.N = count_arr m c :=
  (dats m 0 c).arrAt_eq_of_cover 3 (count_arr m c) (fun t hf => count_flushed m c t hf) count_cover

/-! ## The masked accumulator -/

/-- After the last entry of a core's run of eight (point `8q + 7`) the accumulator holds zero plus the eight entries' addends. -/
theorem masked_running (c : Dev nD) (t : ℕ) (ht : t < cfg0.N) (q : ℕ) (hq : t = 8 * q + 7) (i : S1x1x1.Idx) :
    (outsAt0 m c t ht).2.1 i = 0 + ∑ s ∈ Finset.range 8, maskedAt m c (8 * q + s) := by
  subst hq
  rw [Pipeline.eq_accAt (N := cfg0.N) (fun n h => (outsAt0 m c n h).2.1) 8
    (fun n h => k0_pay1 (F := Ideal) (k0_pay8 (F := Ideal) (iblk m c 2 ⟨n, h⟩) (iblk m c 1 ⟨n, h⟩) (iblk m c 0 ⟨n, h⟩)) (k0_pay4 (F := Ideal)))
    (fun n h acc => k0_pay1 (F := Ideal) (k0_pay8 (F := Ideal) (iblk m c 2 ⟨n, h⟩) (iblk m c 1 ⟨n, h⟩) (iblk m c 0 ⟨n, h⟩)) acc)
    (fun n h h0 => congrArg (fun p => p.2.1) (outs_first m c ⟨n, h⟩ h0))
    (fun n h hne => congrArg (fun p => p.2.1) (outs_step m c ⟨n + 1, h⟩ hne))
    q 7 (by decide) ht]
  exact Pipeline.accAt_add_apply (N := cfg0.N) _ _ (fun _ => (0 : EReal)) (fun n _ => maskedAt m c n) (8 * q) 7
    (fun h i => by rw [Contributions.add_scalar_4, Contributions.zero_4]; unfold maskedAt; rw [dif_pos h])
    (fun n h acc i _ _ => by rw [Contributions.add_scalar_4]; unfold maskedAt; rw [dif_pos h]) 7 le_rfl ht i

/-- What the accumulator's array [2, 1, 1] ends holding: entry `p` is zero plus the addends of batch entries `8p … 8p + 7`. -/
def masked_arr (c : Dev nD) : Buf (Elt Ideal) ((c : Thread nD τ).loc main_v0_1) :=
  fun i => 0 + ∑ s ∈ Finset.range 8, maskedAt m c (8 * (i 0).val + s)

/-- The point that writes the block back writes that entry. -/
theorem masked_flushed (c : Dev nD) (t : Fin cfg0.N) (hf : (cfg0.win 4).flush t = true) :
    (dats m 0 c).flushed 4 t = ((cfg0.win 4).blk t).view.read (Elt Ideal) (masked_arr m c) := by
  have h7 : t.val % 8 = 7 := (flush0_4 t).mp hf
  have hN : t.val < 16 := lt_of_lt_of_eq t.isLt (show cfg0.N = 16 from N_0)
  show (cfg0.win 4).cut (grid0.coords t) ((dats m 0 c).after 4 t) = _
  rw [after0_4]
  funext y
  show (outsAt0 m c t.val t.isLt).2.1 y = masked_arr m c (((cfg0.win 4).blk t).view.emb y)
  have e : ((((cfg0.win 4).blk t).view.emb y) 0).val = t.val / 8 := by
    show win0_4.index t (0 : Fin 3) * 1 + 1 * (y 0).val = _
    have hy : (y 0).val < 1 := (y 0).isLt
    have := (out_index t).2.1
    omega
  rw [masked_running m c t.val t.isLt (t.val / 8) (by omega) y]
  unfold masked_arr
  rw [e]

/-- Every entry of the array is written back by some point: entry `p` by point `8p + 7`. -/
theorem masked_cover (i : S2x1x1.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hN : cfg0.N = 16 := N_0
  let t : Fin cfg0.N := ⟨8 * (i 0).val + 7, by omega⟩
  have ht : t.val = 8 * (i 0).val + 7 := rfl
  refine ⟨t, (flush0_4 t).mpr (by rw [ht]; omega), ?_⟩
  show i ∈ ((View.whole main_v0_1).slice (win0_4.rect t)).set
  rw [View.set_slice_whole, Rect.mem_set_unit]
  obtain ⟨e0, e1, e2⟩ := out_rest t
  have f0 := (out_index t).2.1
  have f1 := (e1).1
  have f2 := (e1).2
  intro a
  match a with
  | ⟨0, _⟩ =>
    show win0_4.index t (0 : Fin 3) * 1 ≤ (i 0).val ∧ (i 0).val < win0_4.index t (0 : Fin 3) * 1 + 1
    rw [f0, ht]; omega
  | ⟨1, _⟩ =>
    show win0_4.index t (1 : Fin 3) * 1 ≤ (i 1).val ∧ (i 1).val < win0_4.index t (1 : Fin 3) * 1 + 1
    rw [f1]; omega
  | ⟨2, _⟩ =>
    show win0_4.index t (2 : Fin 3) * 1 ≤ (i 2).val ∧ (i 2).val < win0_4.index t (2 : Fin 3) * 1 + 1
    rw [f2]; omega

/-- So after the run the array holds it. -/
theorem masked_final (c : Dev nD) : (dats m 0 c).arrAt 4 cfg0.N = masked_arr m c :=
  (dats m 0 c).arrAt_eq_of_cover 4 (masked_arr m c) (fun t hf => masked_flushed m c t hf) masked_cover

/-! ## The unmasked accumulator -/

/-- After the last entry of a core's run of eight (point `8q + 7`) the accumulator holds zero plus the eight entries' addends. -/
theorem unmasked_running (c : Dev nD) (t : ℕ) (ht : t < cfg0.N) (q : ℕ) (hq : t = 8 * q + 7) (i : S1x1x1.Idx) :
    (outsAt0 m c t ht).2.2 i = 0 + ∑ s ∈ Finset.range 8, unmaskedAt m c (8 * q + s) := by
  subst hq
  rw [Pipeline.eq_accAt (N := cfg0.N) (fun n h => (outsAt0 m c n h).2.2) 8
    (fun n h => k0_pay2 (F := Ideal) (k0_pay9 (F := Ideal) (iblk m c 2 ⟨n, h⟩) (iblk m c 1 ⟨n, h⟩) (iblk m c 0 ⟨n, h⟩)) (k0_pay5 (F := Ideal)))
    (fun n h acc => k0_pay2 (F := Ideal) (k0_pay9 (F := Ideal) (iblk m c 2 ⟨n, h⟩) (iblk m c 1 ⟨n, h⟩) (iblk m c 0 ⟨n, h⟩)) acc)
    (fun n h h0 => congrArg (fun p => p.2.2) (outs_first m c ⟨n, h⟩ h0))
    (fun n h hne => congrArg (fun p => p.2.2) (outs_step m c ⟨n + 1, h⟩ hne))
    q 7 (by decide) ht]
  exact Pipeline.accAt_add_apply (N := cfg0.N) _ _ (fun _ => (0 : EReal)) (fun n _ => unmaskedAt m c n) (8 * q) 7
    (fun h i => by rw [Contributions.add_scalar_5, Contributions.zero_5]; unfold unmaskedAt; rw [dif_pos h])
    (fun n h acc i _ _ => by rw [Contributions.add_scalar_5]; unfold unmaskedAt; rw [dif_pos h]) 7 le_rfl ht i

/-- What the accumulator's array [2, 1, 1] ends holding: entry `p` is zero plus the addends of batch entries `8p … 8p + 7`. -/
def unmasked_arr (c : Dev nD) : Buf (Elt Ideal) ((c : Thread nD τ).loc main_v0_2) :=
  fun i => 0 + ∑ s ∈ Finset.range 8, unmaskedAt m c (8 * (i 0).val + s)

/-- The point that writes the block back writes that entry. -/
theorem unmasked_flushed (c : Dev nD) (t : Fin cfg0.N) (hf : (cfg0.win 5).flush t = true) :
    (dats m 0 c).flushed 5 t = ((cfg0.win 5).blk t).view.read (Elt Ideal) (unmasked_arr m c) := by
  have h7 : t.val % 8 = 7 := (flush0_5 t).mp hf
  have hN : t.val < 16 := lt_of_lt_of_eq t.isLt (show cfg0.N = 16 from N_0)
  show (cfg0.win 5).cut (grid0.coords t) ((dats m 0 c).after 5 t) = _
  rw [after0_5]
  funext y
  show (outsAt0 m c t.val t.isLt).2.2 y = unmasked_arr m c (((cfg0.win 5).blk t).view.emb y)
  have e : ((((cfg0.win 5).blk t).view.emb y) 0).val = t.val / 8 := by
    show win0_5.index t (0 : Fin 3) * 1 + 1 * (y 0).val = _
    have hy : (y 0).val < 1 := (y 0).isLt
    have := (out_index t).2.2
    omega
  rw [unmasked_running m c t.val t.isLt (t.val / 8) (by omega) y]
  unfold unmasked_arr
  rw [e]

/-- Every entry of the array is written back by some point: entry `p` by point `8p + 7`. -/
theorem unmasked_cover (i : S2x1x1.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hN : cfg0.N = 16 := N_0
  let t : Fin cfg0.N := ⟨8 * (i 0).val + 7, by omega⟩
  have ht : t.val = 8 * (i 0).val + 7 := rfl
  refine ⟨t, (flush0_5 t).mpr (by rw [ht]; omega), ?_⟩
  show i ∈ ((View.whole main_v0_2).slice (win0_5.rect t)).set
  rw [View.set_slice_whole, Rect.mem_set_unit]
  obtain ⟨e0, e1, e2⟩ := out_rest t
  have f0 := (out_index t).2.2
  have f1 := (e2).1
  have f2 := (e2).2
  intro a
  match a with
  | ⟨0, _⟩ =>
    show win0_5.index t (0 : Fin 3) * 1 ≤ (i 0).val ∧ (i 0).val < win0_5.index t (0 : Fin 3) * 1 + 1
    rw [f0, ht]; omega
  | ⟨1, _⟩ =>
    show win0_5.index t (1 : Fin 3) * 1 ≤ (i 1).val ∧ (i 1).val < win0_5.index t (1 : Fin 3) * 1 + 1
    rw [f1]; omega
  | ⟨2, _⟩ =>
    show win0_5.index t (2 : Fin 3) * 1 ≤ (i 2).val ∧ (i 2).val < win0_5.index t (2 : Fin 3) * 1 + 1
    rw [f2]; omega

/-- So after the run the array holds it. -/
theorem unmasked_final (c : Dev nD) : (dats m 0 c).arrAt 5 cfg0.N = unmasked_arr m c :=
  (dats m 0 c).arrAt_eq_of_cover 5 (unmasked_arr m c) (fun t hf => unmasked_flushed m c t hf) unmasked_cover

end Cert.KernelIdeal.Totals

end
-- ==== Proof.Blocks.lean ====
/-
  A point's input blocks are slabs of the argument arrays.

  At grid point `t` each of the three input windows sits at block index `(t, 0, 0, 0)` (decided over the grid: the index
  map is `8·p + j` on a 2 × 8 grid walked in row-major order), and the blocks have extent 1 along the batch axis and the
  full extent along the others. So entry `y` of the block is entry `(t, y₁, y₂, y₃)` of the array, and each of a batch
  entry's addends is a sum over that entry's slab of the argument arrays.
-/
import proofs.«154313_j8770323218587_2_alg».proof.Proof.Totals

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Totals Cert.MaskedLoss

variable (m : (ℓ : Loc nD τ sig) → Buf (Elt Ideal) ℓ)

/-- The input windows' block indices at point `t`: `(t, 0, 0, 0)`. -/
theorem in_index : ∀ t : Fin cfg0.N, (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- The first argument's block at point `t`. -/
theorem x_block (c : Dev nD) (t : Fin cfg0.N) (y : S1x3x512x512.Idx) :
    (iblk m c 0 t : FVec Ideal S1x3x512x512 .f32) y
      = m ((c : Thread nD τ).loc main_arg0) (ix4 (⟨t.val, lt_of_lt_of_eq t.isLt N_0⟩ : Fin 16) (y 1) (y 2) (y 3)) := by
  obtain ⟨e0, e1, e2, e3⟩ := (in_index t).1
  unfold iblk
  rw [View.read_apply]
  show V m c main_arg0 _ = _
  rw [V_main_arg0]
  refine congrArg _ (funext fun a => Fin.ext ?_)
  match a with
  | ⟨0, _⟩ =>
    show win0_0.index t (0 : Fin 4) * 1 + 1 * (y 0).val = t.val
    have hy : (y 0).val < 1 := (y 0).isLt
    omega
  | ⟨1, _⟩ => show win0_0.index t (1 : Fin 4) * 3 + 1 * (y 1).val = (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- The second argument's block at point `t`. -/
theorem a_block (c : Dev nD) (t : Fin cfg0.N) (y : S1x3x512x512.Idx) :
    (iblk m c 1 t : FVec Ideal S1x3x512x512 .f32) y
      = m ((c : Thread nD τ).loc main_arg1) (ix4 (⟨t.val, lt_of_lt_of_eq t.isLt N_0⟩ : Fin 16) (y 1) (y 2) (y 3)) := by
  obtain ⟨e0, e1, e2, e3⟩ := (in_index t).2.1
  unfold iblk
  rw [View.read_apply]
  show V m c main_arg1 _ = _
  rw [V_main_arg1]
  refine congrArg _ (funext fun a => Fin.ext ?_)
  match a with
  | ⟨0, _⟩ =>
    show win0_1.index t (0 : Fin 4) * 1 + 1 * (y 0).val = t.val
    have hy : (y 0).val < 1 := (y 0).isLt
    omega
  | ⟨1, _⟩ => show win0_1.index t (1 : Fin 4) * 3 + 1 * (y 1).val = (y 1).val; omega
  | ⟨2, _⟩ => show win0_1.index t (2 : Fin 4) * 512 + 1 * (y 2).val = (y 2).val; omega
  | ⟨3, _⟩ => show win0_1.index t (3 : Fin 4) * 512 + 1 * (y 3).val = (y 3).val; omega

/-- The mask's block at point `t`. -/
theorem s_block (c : Dev nD) (t : Fin cfg0.N) (y : S1x1x512x512.Idx) :
    (iblk m c 2 t : FVec Ideal S1x1x512x512 .f32) y
      = m ((c : Thread nD τ).loc main_arg2) (ix4 (⟨t.val, lt_of_lt_of_eq t.isLt N_0⟩ : Fin 16) (y 1) (y 2) (y 3)) := by
  obtain ⟨e0, e1, e2, e3⟩ := (in_index t).2.2
  unfold iblk
  rw [View.read_apply]
  show V m c main_arg2 _ = _
  rw [V_main_arg2]
  refine congrArg _ (funext fun a => Fin.ext ?_)
  match a with
  | ⟨0, _⟩ =>
    show win0_2.index t (0 : Fin 4) * 1 + 1 * (y 0).val = t.val
    have hy : (y 0).val < 1 := (y 0).isLt
    omega
  | ⟨1, _⟩ => show win0_2.index t (1 : Fin 4) * 1 + 1 * (y 1).val = (y 1).val; omega
  | ⟨2, _⟩ => show win0_2.index t (2 : Fin 4) * 512 + 1 * (y 2).val = (y 2).val; omega
  | ⟨3, _⟩ => show win0_2.index t (3 : Fin 4) * 512 + 1 * (y 3).val = (y 3).val; omega

/-! ## The addends over the arrays -/

/-- Batch entry `n`'s count of mask entries above the threshold. -/
theorem countAt_eq (c : Dev nD) (n : Fin 16) :
    countAt m c n.val = ∑ k : S1x1x512x512.Idx, above (m ((c : Thread nD τ).loc main_arg2) (ix4 n (k 1) (k 2) (k 3))) := by
  have h : n.val < cfg0.N := lt_of_lt_of_eq n.isLt N_0.symm
  unfold countAt
  rw [dif_pos h]
  exact Fintype.sum_congr _ _ fun k => congrArg above (s_block m c ⟨n.val, h⟩ k)

/-- Batch entry `n`'s masked sum of squared differences. -/
theorem maskedAt_eq (c : Dev nD) (n : Fin 16) :
    maskedAt m c n.val = ∑ y : S1x3x512x512.Idx,
      sqDiff (m ((c : Thread nD τ).loc main_arg1) (ix4 n (y 1) (y 2) (y 3))) (m ((c : Thread nD τ).loc main_arg0) (ix4 n (y 1) (y 2) (y 3)))
        * above (m ((c : Thread nD τ).loc main_arg2) (ix4 n (0 : Fin 1) (y 2) (y 3))) := by
  have h : n.val < cfg0.N := lt_of_lt_of_eq n.isLt N_0.symm
  unfold maskedAt
  rw [dif_pos h, Contributions.masked_eq]
  refine Fintype.sum_congr _ _ fun y => ?_
  rw [a_block m c ⟨n.val, h⟩ y, x_block m c ⟨n.val, h⟩ y, s_block m c ⟨n.val, h⟩ (ix4 (0 : Fin 1) (0 : Fin 1) (y 2) (y 3))]

/-- Batch entry `n`'s sum of all squared differences minus its masked sum. -/
theorem unmaskedAt_eq (c : Dev nD) (n : Fin 16) :
    unmaskedAt m c n.val = (∑ y : S1x3x512x512.Idx,
      sqDiff (m ((c : Thread nD τ).loc main_arg1) (ix4 n (y 1) (y 2) (y 3))) (m ((c : Thread nD τ).loc main_arg0) (ix4 n (y 1) (y 2) (y 3))))
        - maskedAt m c n.val := by
  have h : n.val < cfg0.N := lt_of_lt_of_eq n.isLt N_0.symm
  unfold unmaskedAt maskedAt
  rw [dif_pos h, dif_pos h, Contributions.unmasked_eq]
  refine congrArg (· - _) (Fintype.sum_congr _ _ fun y => ?_)
  rw [a_block m c ⟨n.val, h⟩ y, x_block m c ⟨n.val, h⟩ y]

end Cert.KernelIdeal.Blocks

end
-- ==== Proof.Regroup.lean ====
/-
  The reference's whole-array totals, regrouped by batch entry.

  The count, the masked total and the complementary total each run over every index of a [16, …] array; grouped by the
  leading (batch) coordinate they are sums over the sixteen batch entries of per-entry totals. For the count and the
  masked total this is only a regrouping of one sum. For the complementary total the per-entry term on the other side
  is "the entry's total of squared differences minus its masked total", which equals the entry's total of
  `(a - x)² · (1 - indicator)` when the squared differences are real numbers: the one place finiteness is used.
-/
import proofs.«154313_j8770323218587_2_alg».proof.Proof.Terms
import proofs.«154313_j8770323218587_2_alg».proof.Proof.LibLeadingAxisSums
import Idealize.ShloMosaic.Lib.ValueIdx

noncomputable section

open scoped BigOperators
open Idealize.ShloMosaic Idealize.ShloMosaic.ValueIdx

namespace Cert.MaskedLoss

open Cert.LeadingAxisSums

/-- The number of mask entries above the threshold. -/
def countAll (s : (⟨4, ![16, 1, 512, 512]⟩ : Shape).Idx → EReal) : EReal := ∑ j, above (s j)

/-- The total of the squared differences at the positions whose mask entry is above the threshold. -/
def maskedAll (x a : (⟨4, ![16, 3, 512, 512]⟩ : Shape).Idx → EReal) (s : (⟨4, ![16, 1, 512, 512]⟩ : Shape).Idx → EReal) : EReal :=
  ∑ j, sqDiff (a j) (x j) * above (s (ix4 (j 0) (0 : Fin 1) (j 2) (j 3)))

/-- The total of the squared differences at the other positions. -/
def unmaskedAll (x a : (⟨4, ![16, 3, 512, 512]⟩ : Shape).Idx → EReal) (s : (⟨4, ![16, 1, 512, 512]⟩ : Shape).Idx → EReal) : EReal :=
  ∑ j, sqDiff (a j) (x j) * (1 - above (s (ix4 (j 0) (0 : Fin 1) (j 2) (j 3))))

/-- Every entry of a [16, 3, 512, 512] array is a real number. -/
def RealValued (f : (⟨4, ![16, 3, 512, 512]⟩ : Shape).Idx → EReal) : Prop := ∀ j, ∃ r : ℝ, f j = (r : EReal)

/-- The count, batch entry by batch entry. -/
theorem count_by_entry (s : (⟨4, ![16, 1, 512, 512]⟩ : Shape).Idx → EReal) :
    ∑ n : Fin 16, ∑ k : (⟨4, ![1, 1, 512, 512]⟩ : Shape).Idx, above (s (ix4 n (k 1) (k 2) (k 3))) = countAll s := by
  unfold countAll
  exact (sum_by_leading (n0 := 16) (n1 := 1) (n2 := 512) (n3 := 512) fun j => above (s j)).symm

/-- The masked total, batch entry by batch entry. -/
theorem masked_by_entry (x a : (⟨4, ![16, 3, 512, 512]⟩ : Shape).Idx → EReal) (s : (⟨4, ![16, 1, 512, 512]⟩ : Shape).Idx → EReal) :
    ∑ n : Fin 16, ∑ y : (⟨4, ![1, 3, 512, 512]⟩ : Shape).Idx,
        sqDiff (a (ix4 n (y 1) (y 2) (y 3))) (x (ix4 n (y 1) (y 2) (y 3))) * above (s (ix4 n (0 : Fin 1) (y 2) (y 3)))
      = maskedAll x a s := by
  unfold maskedAll
  refine ((sum_by_leading (n0 := 16) (n1 := 3) (n2 := 512) (n3 := 512)
    fun j => sqDiff (a j) (x j) * above (s (ix4 (j 0) (0 : Fin 1) (j 2) (j 3)))).trans ?_).symm
  exact Fintype.sum_congr _ _ fun n => Fintype.sum_congr _ _ fun y => rfl

/-- The complementary total, batch entry by batch entry, for real-valued arrays. -/
theorem unmasked_by_entry (x a : (⟨4, ![16, 3, 512, 512]⟩ : Shape).Idx → EReal) (s : (⟨4, ![16, 1, 512, 512]⟩ : Shape).Idx → EReal)
    (hx : RealValued x) (ha : RealValued a) :
    ∑ n : Fin 16, ((∑ y : (⟨4, ![1, 3, 512, 512]⟩ : Shape).Idx, sqDiff (a (ix4 n (y 1) (y 2) (y 3))) (x (ix4 n (y 1) (y 2) (y 3))))
        - ∑ y : (⟨4, ![1, 3, 512, 512]⟩ : Shape).Idx,
            sqDiff (a (ix4 n (y 1) (y 2) (y 3))) (x (ix4 n (y 1) (y 2) (y 3))) * above (s (ix4 n (0 : Fin 1) (y 2) (y 3))))
      = unmaskedAll x a s := by
  unfold unmaskedAll
  refine ((sum_by_leading (n0 := 16) (n1 := 3) (n2 := 512) (n3 := 512)
    fun j => sqDiff (a j) (x j) * (1 - above (s (ix4 (j 0) (0 : Fin 1) (j 2) (j 3))))).trans ?_).symm
  refine Fintype.sum_congr _ _ fun n => ?_
  exact sum_mul_one_sub
    (fun y : (⟨4, ![1, 3, 512, 512]⟩ : Shape).Idx => sqDiff (a (ix4 n (y 1) (y 2) (y 3))) (x (ix4 n (y 1) (y 2) (y 3))))
    (fun y : (⟨4, ![1, 3, 512, 512]⟩ : Shape).Idx => above (s (ix4 n (0 : Fin 1) (y 2) (y 3))))
    (fun y => by
      obtain ⟨r1, h1⟩ := ha (ix4 n (y 1) (y 2) (y 3))
      obtain ⟨r2, h2⟩ := hx (ix4 n (y 1) (y 2) (y 3))
      show ∃ r : ℝ, sqDiff (a (ix4 n (y 1) (y 2) (y 3))) (x (ix4 n (y 1) (y 2) (y 3))) = r
      rw [h1, h2]
      exact sqDiff_real r1 r2)
    (fun y => above_real _)

end Cert.MaskedLoss

end
-- ==== Proof.KernelResult.lean ====
/-
  The kernel's result.

  After the region the host adds the two entries of each accumulator array from zero and applies the scalar tail. With
  the arrays' contents known, each of the three totals is zero plus the sum over the sixteen batch entries of the entry's
  addend — two runs of eight —, and the addends are slab sums of the argument arrays, which regroup to the whole-array
  totals (the complementary one for real-valued arrays only).
-/
import proofs.«154313_j8770323218587_2_alg».proof.Proof.Totals
import proofs.«154313_j8770323218587_2_alg».proof.Proof.Blocks
import proofs.«154313_j8770323218587_2_alg».proof.Proof.Regroup
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.StableHlo Idealize.ShloMosaic.ValueIdx
open Idealize.ShloMosaic.Pipeline (Dat)

namespace Cert.KernelIdeal.Result

open Cert.KernelIdeal Cert.KernelIdeal.Gen Cert.KernelIdeal.Totals Cert.KernelIdeal.Blocks Cert.MaskedLoss Cert.LeadingAxisSums

variable (m : (ℓ : Loc nD τ sig) → Buf (Elt Ideal) ℓ) (ρ : Dev nD → PrngReg)

set_option maxHeartbeats 2000000 in
/-- What the lines after the region leave in the result: the scalar tail of the three arrays' host sums. -/
theorem tail_eq (c : Dev nD) :
    Pipeline.afterTail₀ cfgs (dats m) 0 (V0 m) [hostOps1] c main_v13
      = loss (Host.reduceAdd (F := Ideal) (count_arr m c) (constant (F := Ideal) S_ .f32 0x00000000#32) reducesTo_S2x1x1_S_d0_1_2 h_S_)
          (Host.reduceAdd (F := Ideal) (masked_arr m c) (constant (F := Ideal) S_ .f32 0x00000000#32) reducesTo_S2x1x1_S_d0_1_2 h_S_)
          (Host.reduceAdd (F := Ideal) (unmasked_arr m c) (constant (F := Ideal) S_ .f32 0x00000000#32) reducesTo_S2x1x1_S_d0_1_2 h_S_) := by
  have e3 : Pipeline.withArrays (cfgs 0).spec c (V0 m c) (fun w => (dats m 0 c).arrAt w (cfgs 0).N) (Proc.devRef .tc main_v0_0)
      = count_arr m c := (Pipeline.withArrays_arr spec0 launch0.win.arr_inj c _ _ 3).trans (count_final m c)
  have e4 : Pipeline.withArrays (cfgs 0).spec c (V0 m c) (fun w => (dats m 0 c).arrAt w (cfgs 0).N) (Proc.devRef .tc main_v0_1)
      = masked_arr m c := (Pipeline.withArrays_arr spec0 launch0.win.arr_inj c _ _ 4).trans (masked_final m c)
  have e5 : Pipeline.withArrays (cfgs 0).spec c (V0 m c) (fun w => (dats m 0 c).arrAt w (cfgs 0).N) (Proc.devRef .tc main_v0_2)
      = unmasked_arr m c := (Pipeline.withArrays_arr spec0 launch0.win.arr_inj c _ _ 5).trans (unmasked_final m c)
  unfold Pipeline.afterTail₀
  show StableHlo.after hostOps1 _ (Proc.devRef .tc main_v13) = _
  after_results
  rw [e3, e4, e5]
  rfl

/-- The host's sum of a [2, 1, 1] array from zero. -/
theorem sum_of_pair (A : FVec Ideal S2x1x1 .f32) (i : S_.Idx) :
    Host.reduceAdd (F := Ideal) A (constant (F := Ideal) S_ .f32 0x00000000#32) reducesTo_S2x1x1_S_d0_1_2 h_S_ i
      = 0 + ∑ p : Fin 2, A (ix3 p (0 : Fin 1) (0 : Fin 1)) := by
  simp only [Host.reduceAdd, Ideal.hostReduceAdd_def]
  refine (Ideal.hostReduceAdd_total reducesTo_S2x1x1_S_d0_1_2 (fun b => b.elim0) A _ i).trans ?_
  exact congrArg₂ (· + ·) Ideal.ofBits_zero_f32 (sum_unit_tail A)

/-- The three totals as sums over the sixteen batch entries. -/
theorem count_total (c : Dev nD) (i : S_.Idx) :
    Host.reduceAdd (F := Ideal) (count_arr m c) (constant (F := Ideal) S_ .f32 0x00000000#32) reducesTo_S2x1x1_S_d0_1_2 h_S_ i
      = 0 + ∑ n : Fin 16, countAt m c n.val := by
  rw [sum_of_pair]
  exact congrArg (0 + ·) (sum_two_runs (countAt m c))
theorem masked_total (c : Dev nD) (i : S_.Idx) :
    Host.reduceAdd (F := Ideal) (masked_arr m c) (constant (F := Ideal) S_ .f32 0x00000000#32) reducesTo_S2x1x1_S_d0_1_2 h_S_ i
      = 0 + ∑ n : Fin 16, maskedAt m c n.val := by
  rw [sum_of_pair]
  exact congrArg (0 + ·) (sum_two_runs (maskedAt m c))
theorem unmasked_total (c : Dev nD) (i : S_.Idx) :
    Host.reduceAdd (F := Ideal) (unmasked_arr m c) (constant (F := Ideal) S_ .f32 0x00000000#32) reducesTo_S2x1x1_S_d0_1_2 h_S_ i
      = 0 + ∑ n : Fin 16, unmaskedAt m c n.val := by
  rw [sum_of_pair]
  exact congrArg (0 + ·) (sum_two_runs (unmaskedAt m c))

/-- THE KERNEL'S RESULT, for real-valued first and second arguments: the scalar tail of the whole-array totals. -/
theorem result_eq (c : Dev nD)
    (hx : RealValued (m ((c : Thread nD τ).loc main_arg0))) (ha : RealValued (m ((c : Thread nD τ).loc main_arg1))) :
    Pipeline.afterTail₀ cfgs (dats m) 0 (V0 m) [hostOps1] c main_v13
      = loss (fun _ => countAll (m ((c : Thread nD τ).loc main_arg2)))
          (fun _ => 0 + maskedAll (m ((c : Thread nD τ).loc main_arg0)) (m ((c : Thread nD τ).loc main_arg1)) (m ((c : Thread nD τ).loc main_arg2)))
          (fun _ => 0 + unmaskedAll (m ((c : Thread nD τ).loc main_arg0)) (m ((c : Thread nD τ).loc main_arg1)) (m ((c : Thread nD τ).loc main_arg2))) := by
  have hN : Host.reduceAdd (F := Ideal) (count_arr m c) (constant (F := Ideal) S_ .f32 0x00000000#32) reducesTo_S2x1x1_S_d0_1_2 h_S_
      = fun _ => countAll (m ((c : Thread nD τ).loc main_arg2)) := funext fun i => by
    rw [count_total, zero_add, ← count_by_entry]
    exact Fintype.sum_congr _ _ fun n => countAt_eq m c n
  have hP : Host.reduceAdd (F := Ideal) (masked_arr m c) (constant (F := Ideal) S_ .f32 0x00000000#32) reducesTo_S2x1x1_S_d0_1_2 h_S_
      = fun _ => 0 + maskedAll (m ((c : Thread nD τ).loc main_arg0)) (m ((c : Thread nD τ).loc main_arg1)) (m ((c : Thread nD τ).loc main_arg2)) :=
    funext fun i => by
      rw [masked_total, ← masked_by_entry]
      exact congrArg (0 + ·) (Fintype.sum_congr _ _ fun n => maskedAt_eq m c n)
  have hQ : Host.reduceAdd (F := Ideal) (unmasked_arr m c) (constant (F := Ideal) S_ .f32 0x00000000#32) reducesTo_S2x1x1_S_d0_1_2 h_S_
      = fun _ => 0 + unmaskedAll (m ((c : Thread nD τ).loc main_arg0)) (m ((c : Thread nD τ).loc main_arg1)) (m ((c : Thread nD τ).loc main_arg2)) :=
    funext fun i => by
      rw [unmasked_total, ← unmasked_by_entry _ _ _ hx ha]
      exact congrArg (0 + ·) (Fintype.sum_congr _ _ fun n => by rw [unmaskedAt_eq m c n, maskedAt_eq m c n])
  rw [tail_eq, hN, hP, hQ]

/-- THE RUN, read: the result at the scalar tail of the whole-array totals, the arguments unchanged. -/
theorem run (hfin : ∀ c : Dev nD, RealValued (m ((c : Thread nD τ).loc main_arg0)) ∧ RealValued (m ((c : Thread nD τ).loc main_arg1))) :
    θ_run defs (onTc (τ := τ) (main (F := Ideal))) ⟨m, fun _ => 0, ρ⟩ fun r => ∀ c : Dev nD,
      r.2.mem ((c.tc : Thread nD τ).loc main_v13)
        = loss (fun _ => countAll (m ((c : Thread nD τ).loc main_arg2)))
            (fun _ => 0 + maskedAll (m ((c : Thread nD τ).loc main_arg0)) (m ((c : Thread nD τ).loc main_arg1)) (m ((c : Thread nD τ).loc main_arg2)))
            (fun _ => 0 + unmaskedAll (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 rfl (fun w => by fin_cases w <;> decide))).trans
        (result_eq m c (hfin c).1 (hfin c).2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefTotals.lean ====
/-
  The reference's three totals and its result.

  The reference compares the whole mask with the threshold once. Its count adds the comparison's bits as 32-bit integers
  over all 16·512·512 mask entries — fewer than 2^31, so the sum does not wrap — and converts the sum: the number of
  entries above the threshold. Its masked total multiplies each squared difference by the bit converted to a float and
  repeated along the channel axis; its complementary total by one minus that. The loss is the shared scalar tail of the three.
-/
import proofs.«154313_j8770323218587_2_alg».proof.Proof.Gen.ReferenceIdeal.Read
import proofs.«154313_j8770323218587_2_alg».proof.Proof.Terms
import proofs.«154313_j8770323218587_2_alg».proof.Proof.LibBitCount
import proofs.«154313_j8770323218587_2_alg».proof.Proof.LibLeadingAxisSums
import proofs.«154313_j8770323218587_2_alg».proof.Proof.Regroup
import Idealize.ShloMosaic.Lib.ValueIdx
import Idealize.ShloMosaic.PureOps.IdealRules

noncomputable section

open scoped BigOperators
open Idealize.ShloMosaic Idealize.ShloMosaic.ValueIdx

namespace Cert.ReferenceIdeal.Totals

open Cert.ReferenceIdeal Cert.ReferenceIdeal.Gen Cert.ReferenceIdeal.Read Cert.MaskedLoss

/-- The conversion of an integer word at the exact reading: its signed value. -/
theorem signed_value {w : Nat} (b : BitVec w) : FloatOps.sitofp (F := Ideal) .f32 b = (((b.toInt : ℤ) : ℝ) : EReal) := rfl

/-- The float word for 1. -/
theorem one_word : Ideal.ofBits .f32 0x3F800000#32 = 1 := IdealRules.sign_bit.ideal_onePat .f32

/-- The comparison's bit at a mask entry. -/
theorem bit_apply (s : (⟨S16x1x512x512, .f32⟩ : BufTy).Contents (Elt Ideal)) (j : S16x1x512x512.Idx) :
    val_main_v1 (F := Ideal) s j = Ideal.cmp .ogt (s j) (Ideal.ofBits .f32 0x3F000000#32) := by
  rw [val_main_v1_apply, val_main_v0_apply, val_main_cst_apply]
  rfl

/-- The bit converted to a float is the indicator. -/
theorem mask_apply (s : (⟨S16x1x512x512, .f32⟩ : BufTy).Contents (Elt Ideal)) (j : S16x1x512x512.Idx) :
    val_main_v10 (F := Ideal) s j = above (s j) := by
  rw [val_main_v10_apply, bit_apply]
  rfl

/-- The mask has fewer than 2^31 entries. -/
theorem few : (Finset.univ : Finset S16x1x512x512.Idx).card < 2 ^ 31 := by
  rw [Finset.card_univ, Shape.card_idx]
  decide

/-- A squared-difference entry's mask entry: the channel coordinate dropped. -/
theorem mask_index (j : S16x3x512x512.Idx) : idx_main_v11 j = ix4 (j 0) (0 : Fin 1) (j 2) (j 3) :=
  funext fun b => match b with | ⟨0, _⟩ => rfl | ⟨1, _⟩ => rfl | ⟨2, _⟩ => rfl | ⟨3, _⟩ => rfl
theorem mask_index' (j : S16x3x512x512.Idx) : idx_main_v16 j = ix4 (j 0) (0 : Fin 1) (j 2) (j 3) :=
  funext fun b => match b with | ⟨0, _⟩ => rfl | ⟨1, _⟩ => rfl | ⟨2, _⟩ => rfl | ⟨3, _⟩ => rfl

/-- The count: the number of mask entries above the threshold. -/
theorem count_eq (s : (⟨S16x1x512x512, .f32⟩ : BufTy).Contents (Elt Ideal)) (i : S_.Idx) :
    val_main_v4 (F := Ideal) s i = ∑ j : S16x1x512x512.Idx, above (s j) := by
  have e : val_main_v2 (F := Ideal) s = fun j => (Ideal.cmp .ogt (s j) (Ideal.ofBits .f32 0x3F000000#32)).setWidth 32 :=
    funext fun j => by rw [val_main_v2_apply, bit_apply]
  rw [val_main_v4_apply]
  unfold val_main_v3
  rw [Host.reduce_eq_fold, Finset.filter_true_of_mem fun j _ => funext fun a => a.elim0, e, val_main_c_apply, signed_value,
    Cert.BitCount.count_bits _ _ few, ← Cert.LeadingAxisSums.coe_sum]
  exact Fintype.sum_congr _ _ fun j => rfl

/-- The masked total. -/
theorem masked_eq (x a : (⟨S16x3x512x512, .f32⟩ : BufTy).Contents (Elt Ideal)) (s : (⟨S16x1x512x512, .f32⟩ : BufTy).Contents (Elt Ideal))
    (i : S_.Idx) :
    val_main_v13 (F := Ideal) x a s i
      = 0 + ∑ j : S16x3x512x512.Idx, sqDiff (a j) (x j) * above (s (ix4 (j 0) (0 : Fin 1) (j 2) (j 3))) := by
  rw [val_main_v13_apply, val_main_cst_3_apply]
  refine congrArg₂ (· + ·) Ideal.ofBits_zero_f32 (Fintype.sum_congr _ _ fun j => ?_)
  rw [val_main_v12_apply, val_main_v9_apply, val_main_v8_apply, val_main_v11_apply, mask_apply, mask_index]
  rfl

/-- The complementary total. -/
theorem unmasked_eq (x a : (⟨S16x3x512x512, .f32⟩ : BufTy).Contents (Elt Ideal)) (s : (⟨S16x1x512x512, .f32⟩ : BufTy).Contents (Elt Ideal))
    (i : S_.Idx) :
    val_main_v18 (F := Ideal) x a s i
      = 0 + ∑ j : S16x3x512x512.Idx, sqDiff (a j) (x j) * (1 - above (s (ix4 (j 0) (0 : Fin 1) (j 2) (j 3)))) := by
  rw [val_main_v18_apply, val_main_cst_5_apply]
  refine congrArg₂ (· + ·) Ideal.ofBits_zero_f32 (Fintype.sum_congr _ _ fun j => ?_)
  rw [val_main_v17_apply, val_main_v9_apply, val_main_v8_apply, val_main_v16_apply, val_main_v15_apply, val_main_v14_apply,
    val_main_cst_4_apply, mask_apply, mask_index']
  show _ * (Ideal.ofBits .f32 0x3F800000#32 - _) = _
  rw [one_word]
  rfl

/-- The reference's result is the shared tail of its three totals. -/
theorem result_eq (x a : (⟨S16x3x512x512, .f32⟩ : BufTy).Contents (Elt Ideal)) (s : (⟨S16x1x512x512, .f32⟩ : BufTy).Contents (Elt Ideal)) :
    val_main_v25 (F := Ideal) x a s
      = loss (fun _ => countAll s) (fun _ => 0 + maskedAll x a s) (fun _ => 0 + unmaskedAll x a s) := by
  unfold countAll maskedAll unmaskedAll
  have h : val_main_v25 (F := Ideal) x a s
      = loss (val_main_v4 (F := Ideal) s) (val_main_v13 (F := Ideal) x a s) (val_main_v18 (F := Ideal) x a s) := rfl
  rw [h, funext (count_eq s), funext (masked_eq x a s), funext (unmasked_eq x a s)]

end Cert.ReferenceIdeal.Totals

end
-- ==== Proof.Finite.lean ====
/-
  The precondition read back: every entry of the two compared arrays is a real number.

  The precondition is the conjunction of three tests, one per argument, each "every entry's absolute value is below
  +∞" (a comparison reduced by `and` over the whole array). An extended real whose absolute value `max x (-x)` is below
  `⊤` is neither `⊤` nor `⊥`, so it is a real number.
-/
import proofs.«154313_j8770323218587_2_alg».proof.Pre_finite_inputs
import Idealize.ShloMosaic.PureOps.Ideal
import Idealize.ShloMosaic.Lib.ReduceAll
import Idealize.ShloMosaic.Lib.ValueIdx

noncomputable section

open Idealize.ShloMosaic Idealize.ShloMosaic.ValueIdx

namespace Cert.Pre_finite_inputs.Finite

open Cert.Pre_finite_inputs

variable [Facts]
open Facts

/-- The float word 0x7F800000 is `+∞`. -/
theorem top_word : Ideal.ofBits .f32 0x7F800000#32 = ⊤ := by simp [Ideal.ofBits, Ideal.ieee]

/-- An extended real whose absolute value is below `+∞` is a real number. -/
theorem real_of_test (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have h' : Ideal.cmp .olt (max x (-x)) (Ideal.ofBits .f32 0x7F800000#32) = 1#1 := h
  rw [top_word] at h'
  unfold Ideal.cmp at h'
  have hlt : max x (-x) < ⊤ := by
    by_contra hn
    simp [hn] at h'
  induction x using EReal.rec with
  | bot => simp at hlt
  | top => simp at hlt
  | coe r => exact ⟨r, rfl⟩

/-- A rank-0 array has one index. -/
instance : Subsingleton S_.Idx := ⟨fun a b => funext fun d => d.elim0⟩

/-- Under the precondition every entry of the first and of the second argument is a real number. -/
theorem entries_real (x a : FVec Ideal S16x3x512x512 .f32) (s : FVec Ideal S16x1x512x512 .f32)
    (h : fn (F := Ideal) x a s = fun _ => 1#1) :
    (∀ i, ∃ r : ℝ, x i = r) ∧ (∀ i, ∃ r : ℝ, a i = r) := by
  have h0 := congrFun h ix0
  dsimp only [fn] at h0
  obtain ⟨h1, -⟩ := IntOp.andi_eq_one.1 h0
  obtain ⟨hx, ha⟩ := IntOp.andi_eq_one.1 h1
  exact ⟨fun i => real_of_test (x i) (Host.reduce_andi_all _ _ _ _ _ hx i),
    fun i => real_of_test (a i) (Host.reduce_andi_all _ _ _ _ _ ha i)⟩

end Cert.Pre_finite_inputs.Finite

end
-- ==== Proof.lean ====
/-
  The weighted mean-squared-error loss: the kernel and its reference compute one function of finite inputs.

  With `d = (a - x)²` over [16, 3, 512, 512] and the indicator `1[s > 1/2]` of the mask over [16, 1, 512, 512] (repeated
  along the channel axis), both programs form three totals — the count `N` of mask entries above the threshold, the
  masked total `P = Σ d·1[·]`, and a complementary total `Q` — and return the same scalar expression of them,
  `(N/T)·(Q/((T - N)·3)) + (1 - N/T)·(P/(N·3))`, with the same float words for `T`, 1 and 3.

  The reference takes each total over the whole array: `N` by adding the comparison's bits as 32-bit integers and
  converting the sum (fewer than 2^31 bits: no wrap-around), `Q = Σ d·(1 - 1[·])`. The kernel walks a 2 × 8 grid, batch
  entry `8p + j` at point `(p, j)`; each core keeps three one-element accumulators, reset at its first entry and written
  back after its eighth, adding per entry the entry's count (as floats), its masked total, and its total of `d` MINUS its
  masked total; the host then adds the two cores' values. Sums of extended reals regroup freely, so `N` and `P` agree
  outright. `Q` agrees because `Σ d - Σ d·1[·] = Σ d·(1 - 1[·])` for real `d` — false at `⊤ - ⊤` —, and the precondition makes
  every entry of `x` and `a` a real number. The idealization rewrote nothing, so `preserves` is trivial.

  Proof/Accumulators: what the body leaves in the accumulators per control case. Proof/Contributions: one batch entry's
  addends as sums. Proof/Totals: the accumulation over a core's eight points and the written-back arrays. Proof/Blocks: a
  point's blocks as slabs of the arguments. Proof/Regroup: the whole-array totals batch entry by batch entry.
  Proof/KernelResult: the host tail and the kernel's run. Proof/RefTotals: the reference's totals. Proof/Finite: the
  precondition read back.
-/
import proofs.«154313_j8770323218587_2_alg».proof.Defs
import proofs.«154313_j8770323218587_2_alg».proof.Proof.Gen.Kernel
import proofs.«154313_j8770323218587_2_alg».proof.Proof.Gen.Kernel.Frame
import proofs.«154313_j8770323218587_2_alg».proof.Proof.Gen.KernelIdeal
import proofs.«154313_j8770323218587_2_alg».proof.Proof.Gen.KernelIdeal.Frame
import proofs.«154313_j8770323218587_2_alg».proof.Proof.Gen.ReferenceIdeal
import proofs.«154313_j8770323218587_2_alg».proof.Proof.Gen.ReferenceIdeal.Run
import proofs.«154313_j8770323218587_2_alg».proof.Proof.Gen.ReferenceIdeal.Read
import proofs.«154313_j8770323218587_2_alg».proof.Proof.Gen.Pre_finite_inputs
import proofs.«154313_j8770323218587_2_alg».proof.Proof.KernelResult
import proofs.«154313_j8770323218587_2_alg».proof.Proof.RefTotals
import proofs.«154313_j8770323218587_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the scalar tail of the whole-array totals of arguments that agree. -/
theorem algebraic : Cert.algebraic_KernelIdeal_ReferenceIdeal := by
  intro m ρ m' ρ' hpre hagree
  have hfin : ∀ c : Dev Cert.KernelIdeal.nD,
      Cert.MaskedLoss.RealValued (m ((c.tc : Thread Cert.KernelIdeal.nD Cert.KernelIdeal.τ).loc Cert.KernelIdeal.main_arg0))
      ∧ Cert.MaskedLoss.RealValued (m ((c.tc : Thread Cert.KernelIdeal.nD Cert.KernelIdeal.τ).loc Cert.KernelIdeal.main_arg1)) :=
    fun c => Cert.Pre_finite_inputs.Finite.entries_real _ _ _ (hpre c)
  refine ⟨_, Cert.KernelIdeal.Result.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Totals.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
